-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "clip_floor_total" .f32 0x38D6BF08#32 ((230581994157 / 2251799813685248 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x128 .f32) (main_arg1 : IVec S1024 32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 100000#32
  let main_v11 : IVec S1024 32 := broadcastInDim S1024 ![] bcast_S_S1024 main_c_3
  let main_v12 : IVec S1024 1 := cmpi .slt main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x128 : Shape := ⟨2, ![1024, 128]⟩
abbrev S1024 : Shape := ⟨1, ![1024]⟩
abbrev S100000x128 : Shape := ⟨2, ![100000, 128]⟩
abbrev S1024x1x128 : Shape := ⟨3, ![1024, 1, 128]⟩
abbrev S100000x1x128 : Shape := ⟨3, ![100000, 1, 128]⟩
abbrev S1x1 : Shape := ⟨2, ![1, 1]⟩
abbrev S1x1x128 : Shape := ⟨3, ![1, 1, 128]⟩
abbrev S1 : Shape := ⟨1, ![1]⟩
abbrev S1x128 : Shape := ⟨2, ![1, 128]⟩
abbrev S_ : Shape := ⟨0, ![]⟩

abbrev nBuf : Space → Nat
  | .hbm => 6
  | .vmem => 5
  | .smem => 1
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x1x128, .f32⟩
  | .hbm, ⟨3, _⟩ => ⟨S100000x1x128, .f32⟩
  | .hbm, ⟨4, _⟩ => ⟨S1x1, .f32⟩
  | .hbm, ⟨5, _⟩ => ⟨S_, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1, .f32⟩
  | .local _ .smem, ⟨0, _⟩ => ⟨S1024, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1024) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1024x128_S1024x1x128 : S1024x128.ShapeCasts S1024x1x128
  shapeCasts_S100000x128_S100000x1x128 : S100000x128.ShapeCasts S100000x1x128
  numel1_S1 : S1.numel = 1
  inb_S1x1_S1x1_0_0 : ∀ a, (![0, 0] : Fin 2 → Nat) a + S1x1.size a ≤ S1x1.size a
  h_S1x1 : 0 < S1x1.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  reduces_S1x128_S1 : S1x128.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S1024x1x128.size a
  hwx0_0 : ∀ i : grid0.Coords, EltTy.bits .f32 = 32 ∨ (Rect.block (s := S1024x1x128) S1x1x128.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev spec0_0 : Pipeline.WinSpec sig grid0.rank :=
  Pipeline.WinSpec.ofSpec (Memref.whole main_v0) S1x1x128.size reads0_0 false false 2 stage0_0 sem0_0 nbuf0_0 hstage0_0

abbrev spec0_1 : Pipeline.WinSpec sig grid0.rank :=
  Pipeline.WinSpec.ofSpec (Memref.whole main_v1) S1x1x128.size reads0_1 false false 2 stage0_1 sem0_1 nbuf0_1 hstage0_1

abbrev spec0_2 : Pipeline.WinSpec sig grid0.rank :=
  Pipeline.WinSpec.ofSpec (Memref.whole main_v2) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1x128.size a ≤ S100000x1x128.size a), EltTy.bits .f32 = 32 ∨ (Rect.block (s := S100000x1x128) S1x1x128.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x128, .f32⟩
  | .hbm, ⟨8, _⟩ => ⟨S_, .f32⟩
  | .hbm, ⟨9, _⟩ => ⟨S100000, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S128x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x1, .i32⟩
  | .hbm, ⟨21, _⟩ => ⟨S100000, .i32⟩
  | .hbm, ⟨22, _⟩ => ⟨S1x100000, .i32⟩
  | .hbm, ⟨23, _⟩ => ⟨S1024x100000, .i32⟩
  | .hbm, ⟨24, _⟩ => ⟨S1024x100000, .i32⟩
  | .hbm, ⟨25, _⟩ => ⟨S1024x100000, .i1⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x128_S128x100000_1_0 : S100000x128.Transposes [1, 0] S128x100000
  bcast_S_S1024x100000 : S_.BroadcastsInDim S1024x100000 (![] : Fin 0 → Fin S1024x100000.rank)
  reducesTo_S1024x100000_S_d0_1 : S1024x100000.ReducesTo [0, 1] S_
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.PreFacts.lean ====
/-
  What the precondition gives. The precondition is the conjunction of three tests, each an "all" over an array:
  |x| < +∞ at every entry of the [1024, 128] input, |c| < +∞ at every entry of the [100000, 128] table of centres, and
  0 ≤ l ∧ l < 100000 (signed) at every one of the 1024 labels. Read back entry by entry (`decode`): a reduction by
  "and" from 1 that came out 1 met a 1 at every index. Then:
  • a label in [0, 100000) signed is below 100000 as an unsigned word (`label_lt`);
  • at the ideal instance |v| is max v (−v), the word 0x7F800000 denotes ⊤, and an extended real with max v (−v) < ⊤ is
    neither ⊤ nor ⊥, that is, a real number (`x_real`, `c_real`);
  • the kernel's second window fetches, at grid point i, the block (l[i], 0, 0) of extent [1, 1, 128] of the
    [100000, 1, 128] array; it lies inside the array exactly when (l[i] + 1) · 1 ≤ 100000, (0 + 1) · 1 ≤ 1 and
    (0 + 1) · 128 ≤ 128, which the label bound gives. This is the side condition the frame of either printed program
    asks of the table's contents (`Cert.KernelIdeal.ok_of_pre`, `Cert.Kernel.ok_of_pre`). The table's contents when
    the region is entered are the label argument as launched (`tbl_eq`): no host operation before the region writes it.
-/
import proofs.«163692_j5239860101311_2_alg».proof.Defs
import proofs.«163692_j5239860101311_2_alg».proof.Proof.Gen.Kernel.Frame
import proofs.«163692_j5239860101311_2_alg».proof.Proof.Gen.KernelIdeal.Frame
import proofs.«163692_j5239860101311_2_alg».proof.Proof.Gen.Pre_finite_inputs
import Idealize.ShloMosaic.Lib.ReduceAll
import Idealize.ShloMosaic.Lib.ValueIdx

set_option maxRecDepth 16384

noncomputable section

namespace Cert.PreFacts

open Idealize.ShloMosaic Idealize.ShloMosaic.TcCoe Idealize.SL.Sem Idealize.ShloMosaic.ValueIdx

/-- The scalar shape has one index: a reduction over all axes has one result. -/
instance : Subsingleton Cert.Pre_finite_inputs.S_.Idx := ⟨fun a b => funext fun d => d.elim0⟩

/-- A one-bit test that came out 1 was the test of a true condition: the word of a boolean determines the boolean, and
    1 is the word of `true`. -/
theorem bit_true {b : Bool} (h : BitVec.ofBool b = 1#1) : b = true :=
  BitVec.ofBool_eq_iff_eq.1 (h.trans BitVec.ofBool_true.symm)

/-- A 32-bit word w with 0 ≤ w and w < n as signed integers, n below 2³¹, has unsigned value below n. The two tests are
    inequalities between signed values; the bound's signed value is n itself (n is below half the range); and a word
    whose signed value is nonnegative lies in the lower half of the range, where the signed value is the unsigned one. -/
theorem toNat_lt (w : BitVec 32) (n : Nat) (hn : n < 2 ^ 31) (h0 : IntOp.cmpi .sge w (0#32) = 1#1)
    (h1 : IntOp.cmpi .slt w (BitVec.ofNat 32 n) = 1#1) : w.toNat < n := by
  have s0 : (0#32).toInt ≤ w.toInt := BitVec.sle_iff_toInt_le.1 (bit_true h0)
  have s1 : w.toInt < (BitVec.ofNat 32 n).toInt := BitVec.slt_iff_toInt_lt.1 (bit_true h1)
  have bn : (BitVec.ofNat 32 n).toInt = (n : Int) := by
    have hm : (BitVec.ofNat 32 n).toNat = n := by
      rw [BitVec.toNat_ofNat]; exact Nat.mod_eq_of_lt (by omega)
    rw [BitVec.toInt_eq_toNat_of_lt (by rw [hm]; omega), hm]
  rw [BitVec.toInt_zero] at s0
  rw [bn] at s1
  have hlt : w.toNat < 2 ^ 32 := w.isLt
  have hw := BitVec.toInt_eq_toNat_cond w
  split at hw <;> omega

/-- The precondition read back entry by entry, at any float instance: each of its three "all"s is a reduction by "and"
    from 1 into the scalar shape, so the result 1 says every entry passed its test — |x| < the word 0x7F800000 at every
    entry of the first input, the same at every entry of the table of centres, and 0 ≤ l ∧ l < 100000 signed at every label. -/
theorem decode {F : FTy → Type} [FloatOps F] [hP : Cert.Pre_finite_inputs.Facts]
    (x : FVec F Cert.Pre_finite_inputs.S1024x128 .f32) (l : IVec Cert.Pre_finite_inputs.S1024 32)
    (c : FVec F Cert.Pre_finite_inputs.S100000x128 .f32)
    (h : Cert.Pre_finite_inputs.fn x l c = fun _ => 1#1) :
    (∀ i, FloatOps.cmpf .olt (FloatOps.hostAbsf (x i)) (FloatOps.ofBits .f32 0x7F800000#32) = 1#1)
    ∧ (∀ j, FloatOps.cmpf .olt (FloatOps.hostAbsf (c j)) (FloatOps.ofBits .f32 0x7F800000#32) = 1#1)
    ∧ (∀ k, IntOp.cmpi .sge (l k) 0#32 = 1#1 ∧ IntOp.cmpi .slt (l k) 100000#32 = 1#1) := by
  have e := congrFun h ValueIdx.ix0
  unfold Cert.Pre_finite_inputs.fn at e
  dsimp only at e
  obtain ⟨e8, e14⟩ := IntOp.andi_eq_one.1 e
  obtain ⟨e3, e7⟩ := IntOp.andi_eq_one.1 e8
  refine ⟨fun i => ?_, fun j => ?_, fun k => ?_⟩
  · exact Host.reduce_andi_all _ _ _ _ _ e3 i
  · exact Host.reduce_andi_all _ _ _ _ _ e7 j
  · exact IntOp.andi_eq_one.1 (Host.reduce_andi_all _ _ _ _ _ e14 k)

/-- A label the precondition admits is below 100000 as an unsigned word (generic in the float instance: the label
    test is integer arithmetic). -/
theorem label_lt {F : FTy → Type} [FloatOps F] [hP : Cert.Pre_finite_inputs.Facts]
    (x : FVec F Cert.Pre_finite_inputs.S1024x128 .f32) (l : IVec Cert.Pre_finite_inputs.S1024 32)
    (c : FVec F Cert.Pre_finite_inputs.S100000x128 .f32)
    (h : Cert.Pre_finite_inputs.fn x l c = fun _ => 1#1) (k : Fin 1024) : (l (ValueIdx.ix1 k)).toNat < 100000 :=
  toNat_lt _ 100000 (by decide) ((decode x l c h).2.2 _).1 ((decode x l c h).2.2 _).2

/-- The single-precision word 0x7F800000 (sign 0, exponent all ones, fraction 0) denotes +∞. -/
theorem ofBits_inf : Ideal.ofBits .f32 0x7F800000#32 = (⊤ : EReal) := by
  simp [Ideal.ofBits, Ideal.ieee]

/-- An extended real whose absolute value max v (−v) is below +∞ is a real number: at ⊤ and at ⊥ the maximum is ⊤. -/
theorem real_of_abs_lt_top (v : EReal) (h : max v (-v) < ⊤) : ∃ r : ℝ, v = (r : EReal) := by
  induction v using EReal.rec with
  | bot => simp at h
  | coe r => exact ⟨r, rfl⟩
  | top => simp at h

/-- The precondition's element test |v| < +∞, passed at the ideal instance, says v is a real number. -/
theorem real_of_test (v : Ideal .f32)
    (e : FloatOps.cmpf .olt (FloatOps.hostAbsf v) (FloatOps.ofBits (F := Ideal) .f32 0x7F800000#32) = 1#1) :
    ∃ r : ℝ, v = (r : EReal) := by
  have e' : BitVec.ofBool (decide (max (v : EReal) (-v) < Ideal.ofBits .f32 0x7F800000#32)) = 1#1 := e
  have lt := of_decide_eq_true (bit_true e')
  rw [ofBits_inf] at lt
  exact real_of_abs_lt_top v lt

/-- Under the precondition every entry of the first input is a real number; -/
theorem x_real [hP : Cert.Pre_finite_inputs.Facts] (x : FVec Ideal Cert.Pre_finite_inputs.S1024x128 .f32)
    (l : IVec Cert.Pre_finite_inputs.S1024 32) (c : FVec Ideal Cert.Pre_finite_inputs.S100000x128 .f32)
    (h : Cert.Pre_finite_inputs.fn (F := Ideal) x l c = fun _ => 1#1) (i : Fin 1024) (k : Fin 128) :
    ∃ r : ℝ, x (ValueIdx.ix2 i k) = (r : EReal) :=
  real_of_test _ ((decode x l c h).1 _)

/-- and every entry of the table of centres. -/
theorem c_real [hP : Cert.Pre_finite_inputs.Facts] (x : FVec Ideal Cert.Pre_finite_inputs.S1024x128 .f32)
    (l : IVec Cert.Pre_finite_inputs.S1024 32) (c : FVec Ideal Cert.Pre_finite_inputs.S100000x128 .f32)
    (h : Cert.Pre_finite_inputs.fn (F := Ideal) x l c = fun _ => 1#1) (j : Fin 100000) (k : Fin 128) :
    ∃ r : ℝ, c (ValueIdx.ix2 j k) = (r : EReal) :=
  real_of_test _ ((decode x l c h).2.1 _)

/-- The table the region reads is the label argument as launched. -/
theorem tbl_eq (m : (ℓ : Loc Cert.KernelIdeal.nD Cert.KernelIdeal.τ Cert.KernelIdeal.sig) → Buf (Elt Ideal) ℓ) (y : Cert.KernelIdeal.S1024.Idx) :
    Cert.KernelIdeal.Gen.tbl m 0 y = m (((0 : Dev Cert.KernelIdeal.nD).tc : Thread Cert.KernelIdeal.nD Cert.KernelIdeal.τ).loc Cert.KernelIdeal.main_arg1) y :=
  congrFun ((Cert.KernelIdeal.Gen.V_pre m 0 0).symm.trans (Cert.KernelIdeal.Gen.V_main_arg1 m 0)) y

/-- The table the word-level region reads is the label argument as launched. -/
theorem tbl_eq_bits (m : (ℓ : Loc Cert.Kernel.nD Cert.Kernel.τ Cert.Kernel.sig) → Buf (Elt Bits) ℓ) (y : Cert.Kernel.S1024.Idx) :
    Cert.Kernel.Gen.tbl m 0 y = m (((0 : Dev Cert.Kernel.nD).tc : Thread Cert.Kernel.nD Cert.Kernel.τ).loc Cert.Kernel.main_arg1) y :=
  congrFun ((Cert.Kernel.Gen.V_pre m 0 0).symm.trans (Cert.Kernel.Gen.V_main_arg1 m 0)) y

end Cert.PreFacts

namespace Cert.KernelIdeal

open Idealize.ShloMosaic Idealize.ShloMosaic.TcCoe Idealize.SL.Sem Idealize.ShloMosaic.ValueIdx

section
variable {F : FTy → Type} [FloatOps F] [Named F]

/-- Whatever the table holds, the index map of the second window reads one of its words: its block is (word, 0, 0). -/
theorem transform1_eq (pf : pre0.Contents (Elt F)) (i : grid0.Coords) :
    ∃ y : S1024.Idx, cc0_transform_1 Facts₀.k0_off1_inb Facts₀.numel1_S1 pf i = ![(pf 0 y : BitVec 32).toNat, 0, 0] :=
  ⟨_, rfl⟩

/-- If every word of the table is below 100000, every block (word, 0, 0) of extent [1, 1, 128] lies inside the
    [100000, 1, 128] array: (word + 1) · 1 ≤ 100000, (0 + 1) · 1 ≤ 1, (0 + 1) · 128 ≤ 128; its elements are 32 bits wide. -/
theorem ok0_of_lt (pf : pre0.Contents (Elt F)) (hl : ∀ y : S1024.Idx, (pf 0 y : BitVec 32).toNat < 100000) : ok0 pf := by
  intro i
  obtain ⟨y, e⟩ := transform1_eq pf i
  have hy := hl y
  refine ⟨?_, Or.inl rfl⟩
  rw [e]
  intro a
  match a with
  | ⟨0, _⟩ => show ((pf 0 y : BitVec 32).toNat + 1) * 1 ≤ 100000; omega
  | ⟨1, _⟩ => show (0 + 1) * 1 ≤ 1; decide
  | ⟨2, _⟩ => show (0 + 1) * 128 ≤ 128; decide

end

end Cert.KernelIdeal

namespace Cert.Kernel

open Idealize.ShloMosaic Idealize.ShloMosaic.TcCoe Idealize.SL.Sem Idealize.ShloMosaic.ValueIdx

section
variable {F : FTy → Type} [FloatOps F]

/-- Whatever the table holds, the index map of the second window reads one of its words: its block is (word, 0, 0). -/
theorem transform1_eq (pf : pre0.Contents (Elt F)) (i : grid0.Coords) :
    ∃ y : S1024.Idx, cc0_transform_1 Facts₀.k0_off1_inb Facts₀.numel1_S1 pf i = ![(pf 0 y : BitVec 32).toNat, 0, 0] :=
  ⟨_, rfl⟩

/-- If every word of the table is below 100000, every block (word, 0, 0) of extent [1, 1, 128] lies inside the
    [100000, 1, 128] array: (word + 1) · 1 ≤ 100000, (0 + 1) · 1 ≤ 1, (0 + 1) · 128 ≤ 128; its elements are 32 bits wide. -/
theorem ok0_of_lt (pf : pre0.Contents (Elt F)) (hl : ∀ y : S1024.Idx, (pf 0 y : BitVec 32).toNat < 100000) : ok0 pf := by
  intro i
  obtain ⟨y, e⟩ := transform1_eq pf i
  have hy := hl y
  refine ⟨?_, Or.inl rfl⟩
  rw [e]
  intro a
  match a with
  | ⟨0, _⟩ => show ((pf 0 y : BitVec 32).toNat + 1) * 1 ≤ 100000; omega
  | ⟨1, _⟩ => show (0 + 1) * 1 ≤ 1; decide
  | ⟨2, _⟩ => show (0 + 1) * 128 ≤ 128; decide

end

end Cert.Kernel

section
open Idealize.ShloMosaic Idealize.ShloMosaic.TcCoe Idealize.SL.Sem

/-- The frame hypothesis of the idealized kernel from the precondition. -/
theorem Cert.KernelIdeal.ok_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.Gen.Ok (F := Ideal) m := by
  refine Cert.KernelIdeal.ok0_of_lt (Cert.KernelIdeal.Gen.tbl m) (fun y => ?_)
  rw [Cert.PreFacts.tbl_eq m y, Idealize.ShloMosaic.ValueIdx.eq_ix1 y]
  exact Cert.PreFacts.label_lt _ _ _ (h 0) (y 0)

/-- The same for the word-level kernel. -/
theorem Cert.Kernel.ok_of_pre (m : (ℓ : Loc Cert.Kernel.nD Cert.Kernel.τ Cert.Kernel.sig) → Buf (Elt Bits) ℓ)
    (h : Cert.Pre_Kernel (hPre_finite_inputs := Cert.Pre_finite_inputs.Gen.facts) m) : Cert.Kernel.Gen.Ok (F := Bits) m := by
  refine Cert.Kernel.ok0_of_lt (Cert.Kernel.Gen.tbl m) (fun y => ?_)
  rw [Cert.PreFacts.tbl_eq_bits m y, Idealize.ShloMosaic.ValueIdx.eq_ix1 y]
  exact Cert.PreFacts.label_lt _ _ _ (h 0) (y 0)

end

end
-- ==== Proof.KernelCases.lean ====
/-
  What the loss kernel's body leaves in its one-element output block, case by case, as a value.

  The grid has 1024 points, one per row of the batch; the [1,1] output block is the same at every point and carries a
  running sum. The body has three control cases. At the first point it stores zero, reads it back and stores
  zero-plus-this-row's term. At an inner point it stores the carried sum plus this row's term. At the last point it does
  that and then reads the sum back and stores (sum + constant) / batch. Each case's stores cover the block, so what the
  block holds afterwards is the payload of the last store, with every load read at the whole buffer it came from.
-/
import proofs.«163692_j5239860101311_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F] [Named F]

/-- The zero offsets of a rank-2 and of a rank-3 unit rectangle. -/
theorem off2 : (![0, 0] : Fin 2 → Nat) = fun _ => 0 := funext fun a => by fin_cases a <;> rfl
theorem off3 : (![0, 0, 0] : Fin 3 → Nat) = fun _ => 0 := funext fun a => by fin_cases a <;> rfl

/-- An inner point: the block that held `acc` ends at the accumulate payload of the two row blocks and `acc`. -/
theorem inner (c : Dev nD) (i : grid0.Coords) (a2 : Memref sig .tc .vmem S1x1x128 .f32) (h2 : a2.IsWhole)
    (a3 : Memref sig .tc .vmem S1x1x128 .f32) (h3 : a3.IsWhole) (a4 : Memref sig .tc .vmem S1x1 .f32) (h4 : a4.IsWhole)
    (hc0 : ¬cond0_0 i) (hc1 : ¬cond0_1 i) (x0 x1 : Vec F S1x1x128 .f32) (xt0 : TbBuf0 (F := F) c tbM0_0) (acc : Vec F S1x1 .f32) :
    out0_B_2 c i a2 h2 a3 h3 a4 h4 hc0 hc1 x0 x1 xt0 acc = k0_pay2 x0 x1 acc := by
  unfold out0_B_2
  rw [View.read_writes_eq_canon _ _ _ (cover0_B_2 c i a2 h2 a3 h3 a4 h4 hc0 hc1 x0 x1 xt0 acc)]
  unfold kernelRun0_B
  dsimp only
  rw [View.canon_unit_zero off2]
  simp only [View.readAt_eq_ld, h2.read_unread, h3.read_unread, h4.read_unread, View.ld_unit_zero (S := S1x1x128) off3,
    View.ld_unit_zero (S := S1x1) off2]

/-- The first point: the block ends at the accumulate payload over the zero block it has just stored. -/
theorem first (c : Dev nD) (i : grid0.Coords) (a2 : Memref sig .tc .vmem S1x1x128 .f32) (h2 : a2.IsWhole)
    (a3 : Memref sig .tc .vmem S1x1x128 .f32) (h3 : a3.IsWhole) (a4 : Memref sig .tc .vmem S1x1 .f32) (h4 : a4.IsWhole)
    (hc0 : cond0_0 i) (hc1 : ¬cond0_1 i) (x0 x1 : Vec F S1x1x128 .f32) (xt0 : TbBuf0 (F := F) c tbM0_0) :
    out0_A_2 c i a2 h2 a3 h3 a4 h4 hc0 hc1 x0 x1 xt0 = k0_pay2 x0 x1 (k0_pay1 (F := F)) := by
  unfold out0_A_2
  rw [View.read_writes_eq_canon _ _ _ (cover0_A_2 c i a2 h2 a3 h3 a4 h4 hc0 hc1 x0 x1 xt0)]
  unfold kernelRun0_A
  dsimp only
  sl_unfold_words
  rw [View.canon_cons_unit_zero (S := S1x1) off2, View.readCov_unit_zero (S := S1x1) _ off2]
  simp only [View.readAt_eq_ld, h2.read_unread, h3.read_unread, View.ld_unit_zero (S := S1x1x128) off3]

/-- The last point: the block that held `acc` ends at the finishing payload of the accumulate payload. -/
theorem last (c : Dev nD) (i : grid0.Coords) (a2 : Memref sig .tc .vmem S1x1x128 .f32) (h2 : a2.IsWhole)
    (a3 : Memref sig .tc .vmem S1x1x128 .f32) (h3 : a3.IsWhole) (a4 : Memref sig .tc .vmem S1x1 .f32) (h4 : a4.IsWhole)
    (hc0 : ¬cond0_0 i) (hc1 : cond0_1 i) (x0 x1 : Vec F S1x1x128 .f32) (xt0 : TbBuf0 (F := F) c tbM0_0) (acc : Vec F S1x1 .f32) :
    out0_C_2 c i a2 h2 a3 h3 a4 h4 hc0 hc1 x0 x1 xt0 acc = k0_pay3 (k0_pay2 x0 x1 acc) := by
  unfold out0_C_2
  rw [View.read_writes_eq_canon _ _ _ (cover0_C_2 c i a2 h2 a3 h3 a4 h4 hc0 hc1 x0 x1 xt0 acc)]
  unfold kernelRun0_C
  dsimp only
  sl_unfold_words
  rw [View.canon_cons_unit_zero (S := S1x1) off2, View.readCov_unit_zero (S := S1x1) _ off2]
  simp only [View.readAt_eq_ld, h2.read_unread, h3.read_unread, h4.read_unread, View.ld_unit_zero (S := S1x1x128) off3,
    View.ld_unit_zero (S := S1x1) off2]

end Cert.KernelIdeal.CaseValue

end
-- ==== Proof.KernelPayload.lean ====
/-
  The arithmetic of the loss kernel's three stores, read on the extended reals at the one index of the [1,1] block.

  The zero payload is 0 (as the word of +0.0). The accumulate payload of a row block x, a centre block c and the carried
  sum acc is acc + min(hi, max(lo, sum over the 128 lanes of (x - c)^2)): the lane reduction is a plain sum of the squared
  differences and the clip raises to lo before it caps at hi. The finishing payload of acc is (acc + K) / batch, K the
  constant the kernel names.
-/
import proofs.«163692_j5239860101311_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PayloadValue

open Cert.KernelIdeal Cert.KernelIdeal.Gen

/-- The one index of the [1,1] block. -/
abbrev o : S1x1.Idx := ix2 (0 : Fin 1) (0 : Fin 1)

/-- A [1,1] block has one index. -/
theorem idx_eq (j : S1x1.Idx) : j = o := by
  funext a
  match a with
  | ⟨0, h0⟩ =>
    apply Fin.ext
    have h := (j ⟨0, h0⟩).isLt
    have e : S1x1.size ⟨0, h0⟩ = 1 := rfl
    show (j ⟨0, h0⟩).val = 0
    omega
  | ⟨1, h1⟩ =>
    apply Fin.ext
    have h := (j ⟨1, h1⟩).isLt
    have e : S1x1.size ⟨1, h1⟩ = 1 := rfl
    show (j ⟨1, h1⟩).val = 0
    omega

/-- The lane reduction of a [1,128] vector, at its one row, is the sum of the row's 128 lanes. -/
theorem lane_sum (v : FVec Ideal S1x128 .f32) (hφ : FKind.Formats .f32)
    (hacc : (0x00000000#32 : BitVec 32) = FKind.add.neutral .f32 hφ) :
    multiReduction .add [1] S1 v 0x00000000#32 reduces_S1x128_S1 hφ hacc (ix1 (0 : Fin 1))
      = ∑ k : Fin 128, v (ix2 (0 : Fin 1) k) := by
  refine (Ideal.multiReduction_add_single v _ reduces_S1x128_S1 hφ hacc (ix1 (0 : Fin 1))).trans ?_
  refine Finset.sum_congr rfl fun k _ => congrArg v ?_
  funext a
  match a with
  | ⟨0, _⟩ => rfl
  | ⟨1, _⟩ => rfl

/-- The zero payload is the word of +0.0 at every index. -/
theorem zero_apply (j : S1x1.Idx) : k0_pay1 (F := Ideal) j = Ideal.ofBits .f32 0x00000000#32 := rfl

/-- The accumulate payload at the block's index: the carried sum plus the clipped sum of squared lane differences. -/
theorem accumulate_apply (x c : FVec Ideal S1x1x128 .f32) (acc : FVec Ideal S1x1 .f32) :
    k0_pay2 (F := Ideal) x c acc o
      = acc o + min (Ideal.ofBits .f32 0x5368D4A5#32) (max (Ideal.ofBits .f32 0x2B8CBCCC#32)
          (∑ k : Fin 128, (x (ix3 (0 : Fin 1) (0 : Fin 1) k) - c (ix3 (0 : Fin 1) (0 : Fin 1) k))
            * (x (ix3 (0 : Fin 1) (0 : Fin 1) k) - c (ix3 (0 : Fin 1) (0 : Fin 1) k)))) := by
  unfold k0_pay2
  simp only [addf_apply, minimumf_apply, maximumf_apply, broadcast_apply, shapeCast_self]
  refine congrArg (fun s => acc o + min _ (max _ s)) ?_
  refine (shapeCast_a_1a_apply _ shapeCasts_S1_S1x1 (0 : Fin 1) (0 : Fin 1)).trans ?_
  refine (lane_sum _ _ _).trans ?_
  refine Finset.sum_congr rfl fun k _ => ?_
  simp only [mulf_apply, subf_apply]
  rw [shapeCast_1ab_ab_apply x shapeCasts_S1x1x128_S1x128 (0 : Fin 1) k,
    shapeCast_1ab_ab_apply c shapeCasts_S1x1x128_S1x128 (0 : Fin 1) k]

/-- The finishing payload at the block's index: the carried sum plus the named constant, over the batch size. -/
theorem finish_apply (acc : FVec Ideal S1x1 .f32) :
    k0_pay3 (F := Ideal) acc o
      = Ideal.div (acc o + Named.named (F := Ideal) κ "clip_floor_total" (φ := .f32) 0x38D6BF08#32) (Ideal.ofBits .f32 0x44800000#32) := by
  unfold k0_pay3
  simp only [addf_apply, divf_apply, broadcast_apply, shapeCast_self]
  rfl

end Cert.KernelIdeal.PayloadValue

end
-- ==== Proof.LossAlgebra.lean ====
/- The pure mathematics of a "centre loss" over the extended reals: what the literals of the two programs
   denote, clipping, the expansion of a squared distance, and the masked, clipped double sum collapsing to
   one clipped term per row plus a constant floor. No program is imported here. -/
import Idealize.ShloMosaic.PureOps.Ideal
import Mathlib.Data.EReal.Basic
import Mathlib.Data.EReal.Operations
import Mathlib.Algebra.BigOperators.Group.Finset.Basic
import Mathlib.Tactic

noncomputable section

open scoped BigOperators
open Idealize.ShloMosaic

namespace Cert.LossAlgebra

/-! ### The literals the two programs carry, as the extended reals their IEEE words denote -/

/-- The word of `+0.0` denotes the extended real `0`. -/
theorem zero_val : Ideal.ofBits .f32 0x00000000#32 = 0 := by
  simp [Ideal.ofBits, Ideal.ieee]

/-- The word of `2.0` denotes the real `2`. -/
theorem two_val : Ideal.ofBits .f32 0x40000000#32 = ((2 : ℝ) : EReal) := by
  simp [Ideal.ofBits, Ideal.ieee, -EReal.coe_mul]; norm_num

/-- The word of `1024.0` denotes the real `1024`. -/
theorem batch_val : Ideal.ofBits .f32 0x44800000#32 = ((1024 : ℝ) : EReal) := by
  simp [Ideal.ofBits, Ideal.ieee, -EReal.coe_mul]; norm_num

/-- The lower clipping bound's word denotes `9223372 * 2^(-63) = 2305843 / 2^61`. -/
theorem floor_val : Ideal.ofBits .f32 0x2B8CBCCC#32
    = ((2305843 / 2305843009213693952 : ℝ) : EReal) := by
  simp [Ideal.ofBits, Ideal.ieee, -EReal.coe_mul]; norm_num

/-- The upper clipping bound's word denotes `15258789 * 2^16 = 999999995904`. -/
theorem ceil_val : Ideal.ofBits .f32 0x5368D4A5#32 = ((999999995904 : ℝ) : EReal) := by
  simp [Ideal.ofBits, Ideal.ieee, -EReal.coe_mul]; norm_num

/-- The word with all-ones exponent and zero fraction denotes `+∞`. -/
theorem inf_val : Ideal.ofBits .f32 0x7F800000#32 = ⊤ := by
  simp [Ideal.ofBits, Ideal.ieee]

/-- The lower clipping bound is nonnegative. -/
theorem floor_nonneg : (0 : EReal) ≤ Ideal.ofBits .f32 0x2B8CBCCC#32 := by
  rw [floor_val, ← EReal.coe_zero, EReal.coe_le_coe_iff]
  norm_num

/-- The lower clipping bound is below the upper one. -/
theorem floor_le_ceil : Ideal.ofBits .f32 0x2B8CBCCC#32 ≤ Ideal.ofBits .f32 0x5368D4A5#32 := by
  rw [floor_val, ceil_val, EReal.coe_le_coe_iff]
  norm_num

/-- The floor summed over the `1024 * 99999` masked-out entries is the constant the kernel adds:
    `1024 * 99999 * 2305843 / 2^61 = 230581994157 / 2^51`. -/
theorem floor_total : (1024 : ℕ) • ((99999 : ℕ) • Ideal.ofBits .f32 0x2B8CBCCC#32)
    = ((230581994157 / 2251799813685248 : ℝ) : EReal) := by
  rw [floor_val, ← EReal.coe_nsmul, ← EReal.coe_nsmul, EReal.coe_eq_coe_iff]
  norm_num

/-! ### Clipping -/

/-- Clipping to `[lo, hi]`, in the order both programs apply it: first raise to `lo`, then cap at `hi`. -/
def clip (lo hi s : EReal) : EReal := min hi (max lo s)

/-- With `0 ≤ lo ≤ hi`, clipping `0` gives the lower bound `lo`. -/
theorem clip_zero {lo hi : EReal} (h0 : 0 ≤ lo) (h : lo ≤ hi) : clip lo hi 0 = lo := by
  unfold clip
  rw [max_eq_left h0, min_eq_right h]

/-! ### The squared distance -/

/-- The coercion from the reals to the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The squared distance, expanded: for real vectors `|x|^2 + |c|^2 - 2<x,c>` is the sum of the squared
    coordinate differences, `|x - c|^2`. -/
theorem sq_dist_expand {n : ℕ} (x c : Fin n → ℝ) :
    ((∑ k, (x k : EReal) * (x k : EReal)) + (∑ k, (c k : EReal) * (c k : EReal)))
        - ((2 : ℝ) : EReal) * (∑ k, (x k : EReal) * (c k : EReal))
      = ∑ k, ((x k : EReal) - (c k : EReal)) * ((x k : EReal) - (c k : EReal)) := by
  simp only [← EReal.coe_mul, ← EReal.coe_sub, ← coe_sum, ← EReal.coe_add]
  rw [EReal.coe_eq_coe_iff]
  rw [Finset.mul_sum, ← Finset.sum_add_distrib, ← Finset.sum_sub_distrib]
  exact Finset.sum_congr rfl (fun k _ => by ring)

/-! ### The masked, clipped double sum -/

/-- The masked, clipped double sum: each row contributes its one hit, clipped, and the floor `lo` for each of
    its other entries, because a masked-out entry is `D * 0 = 0` and `0` clips to `lo`. -/
theorem masked_clip_sum {I J : Type} [Fintype I] [Fintype J] [DecidableEq J] (l : I → J)
    (D mask : I → J → EReal) (lo hi : EReal)
    (h0 : 0 ≤ lo) (h : lo ≤ hi) (hmask : ∀ i j, mask i j = if l i = j then 1 else 0) :
    ∑ i, ∑ j, clip lo hi (D i j * mask i j)
      = (∑ i, clip lo hi (D i (l i))) + Fintype.card I • ((Fintype.card J - 1) • lo) := by
  have hrow : ∀ i, ∑ j, clip lo hi (D i j * mask i j)
      = clip lo hi (D i (l i)) + (Fintype.card J - 1) • lo := by
    intro i
    have hterm : ∀ j, clip lo hi (D i j * mask i j)
        = if l i = j then clip lo hi (D i (l i)) else lo := by
      intro j
      rw [hmask]
      by_cases hj : l i = j
      · rw [if_pos hj, if_pos hj, mul_one, hj]
      · rw [if_neg hj, if_neg hj, mul_zero, clip_zero h0 h]
    rw [Finset.sum_congr rfl (fun j _ => hterm j),
      ← Finset.add_sum_erase Finset.univ _ (Finset.mem_univ (l i)), if_pos rfl]
    congr 1
    rw [Finset.sum_congr rfl
        (fun j hj => if_neg (fun e => Finset.ne_of_mem_erase hj e.symm)),
      Finset.sum_const, Finset.card_erase_of_mem (Finset.mem_univ _), Finset.card_univ]
  rw [Finset.sum_congr rfl (fun i _ => hrow i), Finset.sum_add_distrib, Finset.sum_const,
    Finset.card_univ]

/-! ### Running sums -/

/-- A running sum kept in program order is the sum: if `acc 0 = 0 + f 0` and each step adds the next term,
    then `acc n = f 0 + ... + f n`. -/
theorem chain_eq_sum (f : ℕ → EReal) (acc : ℕ → EReal) (h0 : acc 0 = 0 + f 0)
    (hs : ∀ n, acc (n + 1) = acc n + f (n + 1)) (n : ℕ) :
    acc n = ∑ i ∈ Finset.range (n + 1), f i := by
  induction n with
  | zero => rw [h0, zero_add, Finset.sum_range_one]
  | succ m ih => rw [hs, ih, Finset.sum_range_succ _ (m + 1)]

end Cert.LossAlgebra

end
-- ==== Proof.KernelChain.lean ====
/-
  What the loss kernel's output block holds after each grid point, in closed form.

  Write term t for the clipped squared distance of the two row blocks the body sees at point t. After the first point the
  block holds 0 + term 0; after an inner point t it holds what it held before plus term t; so after point n < 1023 it holds
  the sum of term 0 … term n (addition on the extended reals is associative and commutative, so the running sum in grid
  order is the sum). After the last point, 1023, it holds (that sum through 1023, plus the constant K) over the batch size.
-/
import proofs.«163692_j5239860101311_2_alg».proof.Proof.KernelCases
import proofs.«163692_j5239860101311_2_alg».proof.Proof.KernelPayload
import proofs.«163692_j5239860101311_2_alg».proof.Proof.LossAlgebra

noncomputable section

open scoped BigOperators
open Idealize.ShloMosaic Idealize.ShloMosaic.TcCoe Idealize.SL.Sem Idealize.ShloMosaic.ValueIdx

namespace Cert.KernelIdeal.ChainValue

open Cert.KernelIdeal Cert.KernelIdeal.Gen Cert.KernelIdeal.PayloadValue

variable (m : (ℓ : Loc nD τ sig) → Buf (Elt Ideal) ℓ) (hO : Ok m) (c : Dev nD)

/-- The row of x and the centre's row the body sees at point t, as [1,1,128] blocks. -/
abbrev rowBlk (t : Fin (cfgM m hO).N) : FVec Ideal S1x1x128 .f32 := iblk m hO c 0 t
abbrev cenBlk (t : Fin (cfgM m hO).N) : FVec Ideal S1x1x128 .f32 := iblk m hO c 1 t

/-- The clipped squared distance of the two row blocks the body sees at point t. -/
def term (t : Fin (cfgM m hO).N) : EReal :=
  min (Ideal.ofBits .f32 0x5368D4A5#32) (max (Ideal.ofBits .f32 0x2B8CBCCC#32)
    (∑ k : Fin 128, (rowBlk m hO c t (ix3 (0 : Fin 1) (0 : Fin 1) k) - cenBlk m hO c t (ix3 (0 : Fin 1) (0 : Fin 1) k))
      * (rowBlk m hO c t (ix3 (0 : Fin 1) (0 : Fin 1) k) - cenBlk m hO c t (ix3 (0 : Fin 1) (0 : Fin 1) k))))

/-- The same, by the point's number (0 past the grid). -/
def termN (n : ℕ) : EReal := if h : n < (cfgM m hO).N then term m hO c ⟨n, h⟩ else 0

/-- After the first point the block holds zero plus that point's term. -/
theorem at_first (t : Fin (cfgM m hO).N) (h0 : t.val % 1024 = 0) (h1 : ¬t.val % 1024 = 1023) :
    outsAt0 m hO c t.val t.isLt o = Ideal.ofBits .f32 0x00000000#32 + term m hO c t := by
  rw [outsAt0_A m hO c t h0 h1]
  refine (congrFun (CaseValue.first c (grid0.coords t) (ms0_0 m hO t) (hs0_0 m hO t) (ms0_1 m hO t) (hs0_1 m hO t)
    (ms0_2 m hO t) (hs0_2 m hO t) ((hcond0_0 t).mpr h0) (fun h => h1 ((hcond0_1 t).mp h)) (iblk m hO c 0 t) (iblk m hO c 1 t)
    (tbl m 0)) o).trans ?_
  exact accumulate_apply (iblk m hO c 0 t) (iblk m hO c 1 t) (k0_pay1 (F := Ideal))

/-- After an inner point the block holds what the point before left plus this point's term. -/
theorem at_inner (t : Fin (cfgM m hO).N) (h0 : ¬t.val % 1024 = 0) (h1 : ¬t.val % 1024 = 1023) :
    outsAt0 m hO c t.val t.isLt o
      = outsAt0 m hO c (t.val - 1) (Nat.lt_of_le_of_lt (Nat.sub_le _ _) t.isLt) o + term m hO c t := by
  rw [outsAt0_B m hO c t h0 h1]
  refine (congrFun (CaseValue.inner c (grid0.coords t) (ms0_0 m hO t) (hs0_0 m hO t) (ms0_1 m hO t) (hs0_1 m hO t)
    (ms0_2 m hO t) (hs0_2 m hO t) (fun h => h0 ((hcond0_0 t).mp h)) (fun h => h1 ((hcond0_1 t).mp h)) (iblk m hO c 0 t)
    (iblk m hO c 1 t) (tbl m 0) (outsAt0 m hO c (t.val - 1) (Nat.lt_of_le_of_lt (Nat.sub_le _ _) t.isLt))) o).trans ?_
  exact accumulate_apply (iblk m hO c 0 t) (iblk m hO c 1 t) (outsAt0 m hO c (t.val - 1) (Nat.lt_of_le_of_lt (Nat.sub_le _ _) t.isLt))

/-- After the last point the block holds the finished value: the sum so far plus this point's term plus the constant,
    over the batch size. -/
theorem at_last (t : Fin (cfgM m hO).N) (h0 : ¬t.val % 1024 = 0) (h1 : t.val % 1024 = 1023) :
    outsAt0 m hO c t.val t.isLt o
      = Ideal.div ((outsAt0 m hO c (t.val - 1) (Nat.lt_of_le_of_lt (Nat.sub_le _ _) t.isLt) o + term m hO c t)
          + Named.named (F := Ideal) κ "clip_floor_total" (φ := .f32) 0x38D6BF08#32) (Ideal.ofBits .f32 0x44800000#32) := by
  rw [outsAt0_C m hO c t h0 h1]
  refine (congrFun (CaseValue.last c (grid0.coords t) (ms0_0 m hO t) (hs0_0 m hO t) (ms0_1 m hO t) (hs0_1 m hO t)
    (ms0_2 m hO t) (hs0_2 m hO t) (fun h => h0 ((hcond0_0 t).mp h)) ((hcond0_1 t).mpr h1) (iblk m hO c 0 t)
    (iblk m hO c 1 t) (tbl m 0) (outsAt0 m hO c (t.val - 1) (Nat.lt_of_le_of_lt (Nat.sub_le _ _) t.isLt))) o).trans ?_
  refine (finish_apply _).trans ?_
  exact congrArg (fun s => Ideal.div (s + Named.named (F := Ideal) κ "clip_floor_total" (φ := .f32) 0x38D6BF08#32) (Ideal.ofBits .f32 0x44800000#32))
    (accumulate_apply (iblk m hO c 0 t) (iblk m hO c 1 t) (outsAt0 m hO c (t.val - 1) (Nat.lt_of_le_of_lt (Nat.sub_le _ _) t.isLt)))

/-- Before the last point the block holds the sum of the terms so far. -/
theorem partial_sum : ∀ (n : ℕ) (h : n < (cfgM m hO).N), n < 1023 →
    outsAt0 m hO c n h o = ∑ i ∈ Finset.range (n + 1), termN m hO c i
  | 0, h, _ => by
    have e := at_first m hO c ⟨0, h⟩ rfl (by show ¬(0 % 1024 = 1023); decide)
    rw [Cert.LossAlgebra.zero_val, zero_add] at e
    rw [Finset.sum_range_one]
    unfold termN
    rw [dif_pos h]
    exact e
  | n + 1, h, hn => by
    have e := at_inner m hO c ⟨n + 1, h⟩ (by show ¬(n + 1) % 1024 = 0; omega) (by show ¬(n + 1) % 1024 = 1023; omega)
    have ih := partial_sum n (Nat.lt_of_succ_lt h) (by omega)
    rw [Finset.sum_range_succ, ← ih]
    unfold termN
    rw [dif_pos h]
    exact e

/-- After the last point the block holds the loss over the terms: (their sum plus the constant) over the batch size. -/
theorem final_value (h : 1023 < (cfgM m hO).N) :
    outsAt0 m hO c 1023 h o
      = Ideal.div ((∑ i ∈ Finset.range 1024, termN m hO c i)
          + Named.named (F := Ideal) κ "clip_floor_total" (φ := .f32) 0x38D6BF08#32) (Ideal.ofBits .f32 0x44800000#32) := by
  have e := at_last m hO c ⟨1023, h⟩ (by show ¬(1023 % 1024 = 0); decide) (by show 1023 % 1024 = 1023; decide)
  have ih := partial_sum m hO c 1022 (Nat.lt_of_succ_lt h) (by decide)
  rw [Finset.sum_range_succ _ 1023, ← ih]
  unfold termN
  rw [dif_pos h]
  exact e

end Cert.KernelIdeal.ChainValue

end
-- ==== Proof.KernelBlocks.lean ====
/-
  The two input blocks the loss kernel's body sees at grid point t, as rows of the argument arrays.

  Before the region the host reshapes x from [1024,128] to [1024,1,128] and the table of centres from [100000,128] to
  [100000,1,128]; a reshape keeps the row-major position, so entry (i, 0, k) of the reshaped array is entry (i, k) of the
  argument. Window 0's index map sends point t to block (t, 0, 0) and window 1's sends it to block (l, 0, 0), l the word
  the label table holds at position t; a block's element (0, 0, k) sits at block index × block size + its own
  coordinate, that is at (t, 0, k) and at (l, 0, k). So the body's first block is row t of x and its second is row l of
  the table of centres.
-/
import proofs.«163692_j5239860101311_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.BlockValue

open Cert.KernelIdeal Cert.KernelIdeal.Gen

variable {F : FTy → Type} [FloatOps F] [Named F]

/-- An [a, b] array cast to [a, 1, b] reads, at (i, u, j), the operand at (i, j): both have row-major position i·b + j. -/
theorem cast_mid_unit {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

variable (m : (ℓ : Loc nD τ sig) → Buf (Elt F) ℓ)

/-- When the region is entered the first window's array is x reshaped to [1024,1,128]; -/
theorem V_rows (c : Dev nD) : (V m c main_v0 : S1024x1x128.Idx → Elt F .f32)
    = shapeCast S1024x1x128 (m ((c : Thread nD τ).loc main_arg0)) shapeCasts_S1024x128_S1024x1x128 := by
  show StableHlo.after hostOps0 (fun b => m (c, b)) (Proc.devRef .tc main_v0) = _
  after_results
  rfl

/-- and the second window's array is the table of centres reshaped to [100000,1,128]. -/
theorem V_centres (c : Dev nD) : (V m c main_v1 : S100000x1x128.Idx → Elt F .f32)
    = shapeCast S100000x1x128 (m ((c : Thread nD τ).loc main_arg2)) shapeCasts_S100000x128_S100000x1x128 := by
  show StableHlo.after hostOps0 (fun b => m (c, b)) (Proc.devRef .tc main_v1) = _
  after_results
  rfl

/-- Window 0's index map sends point t to block (t, 0, 0). -/
theorem index0 : ∀ t : Fin grid0.N, cc0_transform_0 (grid0.coords t) = ![t.val, 0, 0] :=
  (by decide +kernel : ∀ t : Fin grid0.N, cc0_transform_0 (grid0.coords t) = ![t.val, 0, 0])

/-- The offset at which window 1's index map reads the label table at point t is t. -/
theorem off1 : ∀ t : Fin grid0.N, k0_off1 (grid0.coords t) = ![t.val] :=
  (by decide +kernel : ∀ t : Fin grid0.N, k0_off1 (grid0.coords t) = ![t.val])

/-- Whatever the table holds, window 1's index map sends point t to block (l, 0, 0), l the table's word at position t. -/
theorem label_index (pf : pre0.Contents (Elt F)) (t : Fin grid0.N) (y : S1024.Idx) (hy : (y 0).val = t.val) :
    cc0_transform_1 k0_off1_inb numel1_S1 pf (grid0.coords t) = ![(pf 0 y : BitVec 32).toNat, 0, 0] := by
  unfold cc0_transform_1
  dsimp only
  refine congrArg (fun z : BitVec 32 => (![z.toNat, (0#32).toNat, (0#32).toNat] : Fin 3 → Nat)) (congrArg (pf 0) ?_)
  funext a
  apply Fin.ext
  match a with
  | ⟨0, h0⟩ =>
    have ho : k0_off1 (grid0.coords t) ⟨0, h0⟩ = t.val := by rw [off1 t]; rfl
    show k0_off1 (grid0.coords t) ⟨0, h0⟩ + 1 * 0 = (y ⟨0, h0⟩).val
    rw [ho]
    show t.val + 1 * 0 = (y 0).val
    omega

/-- At any contents of the table, window 0's block at point t read at (0, 0, k) is its array at (t, 0, k). -/
theorem row_read (a : (pcfg0 (F := F)).Adm) (c : Dev nD) (t : Fin (cfg0 a).N) (X : Buf (Elt F) ((c : Thread nD τ).loc main_v0))
    (k : Fin 128) (r : Fin 1024) (hr : r.val = t.val) :
    (((cfg0 a).win 0).blk t).view.read (Elt F) X (ix3 (0 : Fin 1) (0 : Fin 1) k) = X (ix3 r (0 : Fin 1) k) := by
  show X ((((cfg0 a).win 0).blk t).view.emb (ix3 (0 : Fin 1) (0 : Fin 1) k)) = X (ix3 r (0 : Fin 1) k)
  refine congrArg X (funext fun d => Fin.ext ?_)
  have hi : ((cfg0 a).win 0).index t = ![t.val, 0, 0] := index0 t
  match d with
  | ⟨0, _⟩ =>
    show ((cfg0 a).win 0).index t ⟨0, _⟩ * 1 + 1 * 0 = r.val
    rw [hi]; show t.val * 1 + 1 * 0 = r.val; omega
  | ⟨1, _⟩ =>
    show ((cfg0 a).win 0).index t ⟨1, _⟩ * 1 + 1 * 0 = 0
    rw [hi]; rfl
  | ⟨2, _⟩ =>
    show ((cfg0 a).win 0).index t ⟨2, _⟩ * 128 + 1 * k.val = k.val
    rw [hi]; show 0 * 128 + 1 * k.val = k.val; omega

/-- At contents of the table whose index map gives block (w, 0, 0) at point t, window 1's block read at (0, 0, k) is its
    array at (w, 0, k). -/
theorem centre_read (a : (pcfg0 (F := F)).Adm) (c : Dev nD) (t : Fin (cfg0 a).N) (X : Buf (Elt F) ((c : Thread nD τ).loc main_v1))
    (k : Fin 128) (r : Fin 100000) (w : Nat) (hw : cc0_transform_1 k0_off1_inb numel1_S1 a.1 (grid0.coords t) = ![w, 0, 0]) (hr : r.val = w) :
    (((cfg0 a).win 1).blk t).view.read (Elt F) X (ix3 (0 : Fin 1) (0 : Fin 1) k) = X (ix3 r (0 : Fin 1) k) := by
  show X ((((cfg0 a).win 1).blk t).view.emb (ix3 (0 : Fin 1) (0 : Fin 1) k)) = X (ix3 r (0 : Fin 1) k)
  refine congrArg X (funext fun d => Fin.ext ?_)
  have hi : ((cfg0 a).win 1).index t = ![w, 0, 0] := hw
  match d with
  | ⟨0, _⟩ =>
    show ((cfg0 a).win 1).index t ⟨0, _⟩ * 1 + 1 * 0 = r.val
    rw [hi]; show w * 1 + 1 * 0 = r.val; omega
  | ⟨1, _⟩ =>
    show ((cfg0 a).win 1).index t ⟨1, _⟩ * 1 + 1 * 0 = 0
    rw [hi]; rfl
  | ⟨2, _⟩ =>
    show ((cfg0 a).win 1).index t ⟨2, _⟩ * 128 + 1 * k.val = k.val
    rw [hi]; show 0 * 128 + 1 * k.val = k.val; omega

/-- The body's first block at point t, read at lane k, is x at (t, k). -/
theorem row_block (hO : Ok m) (c : Dev nD) (t : Fin (cfgM m hO).N) (k : Fin 128) (r : Fin 1024) (hr : r.val = t.val) :
    (iblk m hO c 0 t : FVec F S1x1x128 .f32) (ix3 (0 : Fin 1) (0 : Fin 1) k) = m ((c : Thread nD τ).loc main_arg0) (ix2 r k) := by
  unfold iblk
  refine (row_read (adm m hO) c t (V m c main_v0) k r hr).trans ?_
  refine (congrFun (V_rows m c) (ix3 r (0 : Fin 1) k)).trans ?_
  exact cast_mid_unit _ _ r (0 : Fin 1) k

/-- The body's second block at point t, read at lane k, is the table of centres at (l, k), l the label at position t. -/
theorem centre_block (hO : Ok m) (c : Dev nD) (t : Fin (cfgM m hO).N) (k : Fin 128) (y : S1024.Idx) (hy : (y 0).val = t.val)
    (r : Fin 100000) (hr : r.val = (tbl m 0 y : BitVec 32).toNat) :
    (iblk m hO c 1 t : FVec F S1x1x128 .f32) (ix3 (0 : Fin 1) (0 : Fin 1) k) = m ((c : Thread nD τ).loc main_arg2) (ix2 r k) := by
  unfold iblk
  refine (centre_read (adm m hO) c t (V m c main_v1) k r _ (label_index (tbl m) t y hy) hr).trans ?_
  refine (congrFun (V_centres m c) (ix3 r (0 : Fin 1) k)).trans ?_
  exact cast_mid_unit _ _ r (0 : Fin 1) k

end Cert.KernelIdeal.BlockValue

end
-- ==== Proof.KernelFinal.lean ====
/-
  The loss kernel's output array after the run.

  The [1,1] output window has the same block, (0, 0), at every grid point, and is written back once, after the last
  point; that block is the whole array, which has one index. So the array ends holding what the body left in the staging
  buffer at the last point.
-/
import proofs.«163692_j5239860101311_2_alg».proof.Proof.KernelPayload
import proofs.«163692_j5239860101311_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.FinalValue

open Cert.KernelIdeal Cert.KernelIdeal.Gen

variable {F : FTy → Type} [FloatOps F] [Named F]

/-- The number of the grid's last point, a constant with the one equation `lastIdx = 1023`. -/
def lastIdx : ℕ := 1023
theorem lastIdx_eq : lastIdx = 1023 := rfl
attribute [irreducible] lastIdx

variable (m : (ℓ : Loc nD τ sig) → Buf (Elt F) ℓ) (hO : Ok m) (c : Dev nD)

/-- The last point is a point of the grid. -/
theorem lastIdx_lt : lastIdx < (cfgM m hO).N := by
  rw [lastIdx_eq, show (cfgM m hO).N = 1024 from N_0]; decide

abbrev tLast : Fin (cfgM m hO).N := ⟨lastIdx, lastIdx_lt m hO⟩

/-- What the body left in the output block at the last point, as contents of the output array. -/
abbrev result : Buf (Elt F) ((c : Thread nD τ).loc main_v2) := outsAt0 m hO c lastIdx (lastIdx_lt m hO)

/-- The one write-back, at the last point, writes it: both sides read the same one-index block. -/
theorem flushed_eq (t : Fin (cfgM m hO).N) (hf : ((cfgM m hO).win 2).flush t = true) :
    (dats m hO 0 c).flushed 2 t = (((cfgM m hO).win 2).blk t).view.read (Elt F) (result m hO c) := by
  have hN : (cfgM m hO).N = 1024 := N_0
  have h3 : t.val = lastIdx := by
    rw [lastIdx_eq]; have := (flush0_2 (adm m hO) t).mp hf; have := t.isLt; omega
  obtain rfl : t = tLast m hO := Fin.ext h3
  show ((cfgM m hO).win 2).cut (grid0.coords (tLast m hO)) ((dats m hO 0 c).after 2 (tLast m hO)) = _
  rw [after0_2]
  funext y
  show outsAt0 m hO c lastIdx (lastIdx_lt m hO) y
    = result m hO c ((((cfgM m hO).win 2).blk (tLast m hO)).view.emb y)
  refine congrArg (outsAt0 m hO c lastIdx (lastIdx_lt m hO)) ?_
  exact (PayloadValue.idx_eq (y : S1x1.Idx)).trans
    (PayloadValue.idx_eq ((((cfgM m hO).win 2).blk (tLast m hO)).view.emb y : S1x1.Idx)).symm

/-- So the output array ends holding what the body left at the last point: the array's one index is the block's one index
    embedded, so the block written back there covers the array. -/
theorem final_o : (dats m hO 0 c).arrAt 2 (cfgM m hO).N = result m hO c :=
  (dats m hO 0 c).arrAt_eq_of_cover 2 (result m hO c) (flushed_eq m hO c) fun i =>
    ⟨tLast m hO, (flush0_2 (adm m hO) (tLast m hO)).mpr (by show lastIdx % 1024 = 1023; rw [lastIdx_eq]), by
      have e : i = (((cfgM m hO).win 2).blk (tLast m hO)).view.emb (PayloadValue.o : S1x1.Idx) :=
        (PayloadValue.idx_eq (i : S1x1.Idx)).trans
          (PayloadValue.idx_eq ((((cfgM m hO).win 2).blk (tLast m hO)).view.emb (PayloadValue.o : S1x1.Idx) : S1x1.Idx)).symm
      exact Eq.mpr (congrArg (fun z => z ∈ (((cfgM m hO).win 2).blk (tLast m hO)).view.set) e)
        (View.emb_mem_set (((cfgM m hO).win 2).blk (tLast m hO)).view (PayloadValue.o : S1x1.Idx))⟩

end Cert.KernelIdeal.FinalValue

end
-- ==== Proof.KernelTail.lean ====
/-
  The idealized kernel's run with its result buffer named. After the region the host runs one operation, the reshape of
  the [1, 1] output array to the scalar shape, and its result buffer is the program's result. The frame run leaves every
  array of the pipeline at what the library computes from the proof data and every other unscoped buffer at what the
  host operations after the region make of the region's exit contents. Read at the result buffer: the one host operation
  writes it, with the reshape of what the output array holds at the region's exit, that is, of the output window's final
  array. Read at an argument: no host operation after the region writes it and it is no array of the pipeline's that the
  region changes, so it ends as launched. A [1, 1] array has one index, so the reshaped scalar is the array's one entry.
-/
import proofs.«163692_j5239860101311_2_alg».proof.Proof.Gen.KernelIdeal.Frame
import Idealize.ShloMosaic.Lib.ValueIdx

set_option maxRecDepth 16384

noncomputable section

namespace Cert.KernelIdeal.TailValue

open Cert.KernelIdeal Cert.KernelIdeal.Gen
open Idealize.ShloMosaic Idealize.ShloMosaic.TcCoe Idealize.SL.Sem Idealize.ShloMosaic.ValueIdx

variable {F : FTy → Type} [FloatOps F] [Named F]
variable (m : (ℓ : Loc nD τ sig) → Buf (Elt F) ℓ) (ρ : Dev nD → PrngReg)

/-- What the host operation after the region leaves in the result buffer: the reshape to the scalar shape of the output
    window's final array. The operation writes the result buffer with the reshape of the output array's contents at the
    region's exit, and there the output array, an array of the pipeline, holds its final array. -/
theorem tail_main_v3 (hO : Ok m) (c : Dev nD) :
    Pipeline.afterTail pcfgs (fun _ => adm m hO) (dats m hO) 0 (V0 m) [hostOps1] c main_v3
      = shapeCast S_ ((dats m hO 0 c).arrAt 2 (cfgM m hO).N : S1x1.Idx → Elt F .f32) shapeCasts_S1x1_S_ := by
  unfold Pipeline.afterTail
  show StableHlo.after hostOps1 _ (Proc.devRef .tc main_v3) = _
  after_results
  have e := Pipeline.withArrays_arr (Pipeline.pin pcfgs (fun _ => adm m hO) 0).spec (launch0 (F := F)).win.arr_inj c (V0 m c)
    (fun w => (dats m hO 0 c).arrAt w (Pipeline.pin pcfgs (fun _ => adm m hO) 0).N) 2
  funext i
  exact congrArg (fun A : S1x1.Idx → Elt F .f32 => shapeCast S_ A shapeCasts_S1x1_S_ i) e

/-- Every weakly fair execution ends with the result at the reshape of the output window's final array and the arguments
    as launched. -/
theorem run_named (hO : Ok m) : θ_run defs (onTc (τ := τ) (main (F := F))) ⟨m, fun _ => 0, ρ⟩ (fun r => ∀ c : Dev nD,
      r.2.mem ((c.tc : Thread nD τ).loc main_v3)
        = shapeCast S_ ((dats m hO 0 c).arrAt 2 (cfgM m hO).N : S1x1.Idx → Elt F .f32) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (by decide : main_v3 ∈ Pipeline.restRefs sig spec0)).trans (tail_main_v3 m hO c),
     ((h c).2 main_arg0 (by decide : main_arg0 ∈ Pipeline.restRefs sig spec0)).trans (W_main_arg0 m hO (dats m hO) c),
     ((h c).2 main_arg1 (by decide : main_arg1 ∈ Pipeline.restRefs sig spec0)).trans (W_main_arg1 m hO (dats m hO) c),
     ((h c).2 main_arg2 (by decide : main_arg2 ∈ Pipeline.restRefs sig spec0)).trans (W_main_arg2 m hO (dats m hO) c)⟩)
    (run_main m ρ hO)

/-- The same run once the output window's final array is known to be `G` on every device: the result is the reshape
    of `G`. -/
theorem run_at (hO : Ok m) (G : S1x1.Idx → Elt F .f32) (hG : ∀ c : Dev nD, (dats m hO 0 c).arrAt 2 (cfgM m hO).N = G) :
    θ_run defs (onTc (τ := τ) (main (F := F))) ⟨m, fun _ => 0, ρ⟩ (fun r => ∀ c : Dev nD,
      r.2.mem ((c.tc : Thread nD τ).loc main_v3) = shapeCast S_ G shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans (congrArg (fun A : S1x1.Idx → Elt F .f32 => shapeCast S_ A shapeCasts_S1x1_S_) (hG c)), (h c).2⟩)
    (run_named m ρ hO)

/-- A [1, 1] array has one index: each coordinate ranges over one value. -/
instance : Subsingleton S1x1.Idx := ⟨fun a b => funext fun d => by
  match d with
  | ⟨0, _⟩ => exact Subsingleton.elim (α := Fin 1) _ _
  | ⟨1, _⟩ => exact Subsingleton.elim (α := Fin 1) _ _⟩

/-- The reshape of a [1, 1] array to the scalar shape reads, at the scalar's one index, the array's one entry. -/
theorem shapeCast_one {α : Type} (G : S1x1.Idx → α) (i0 : S_.Idx) :
    shapeCast S_ G shapeCasts_S1x1_S_ i0 = G (ix2 (0 : Fin 1) (0 : Fin 1)) :=
  congrArg G (Subsingleton.elim _ _)

end Cert.KernelIdeal.TailValue

end
-- ==== Proof.LossSpec.lean ====
/-
  The loss both programs compute, as one function of the argument arrays on the extended reals.

  For row i of x and the centre the label names, the row's term is the squared distance sum over the 128 lanes of
  (x - c)^2, clipped to [lo, hi]; the loss is the sum of the 1024 row terms plus the constant K, over the batch size.
  lo, hi and the batch size are the values of the words both programs carry; K is the clip floor summed over the
  1024 * 99999 masked-out entries of the reference's matrix, 230581994157 / 2^51.
-/
import proofs.«163692_j5239860101311_2_alg».proof.Proof.LossAlgebra
import Idealize.ShloMosaic.Lib.ValueIdx

noncomputable section

open scoped BigOperators
open Idealize.ShloMosaic Idealize.ShloMosaic.ValueIdx

namespace Cert.LossSpec

/-- The clip's lower and upper bounds. -/
abbrev lo : EReal := Ideal.ofBits .f32 0x2B8CBCCC#32
abbrev hi : EReal := Ideal.ofBits .f32 0x5368D4A5#32

/-- Row i's term against centre j: the clipped squared distance. -/
def rowTerm (x : (⟨2, ![1024, 128]⟩ : Shape).Idx → EReal) (c : (⟨2, ![100000, 128]⟩ : Shape).Idx → EReal)
    (i : Fin 1024) (j : Fin 100000) : EReal :=
  Cert.LossAlgebra.clip lo hi (∑ k : Fin 128, (x (ix2 i k) - c (ix2 j k)) * (x (ix2 i k) - c (ix2 j k)))

/-- The loss at labels `lab`: the row terms summed, plus the summed floor, over the batch size. -/
def loss (x : (⟨2, ![1024, 128]⟩ : Shape).Idx → EReal) (c : (⟨2, ![100000, 128]⟩ : Shape).Idx → EReal)
    (lab : Fin 1024 → Fin 100000) : EReal :=
  Ideal.div ((∑ i : Fin 1024, rowTerm x c i (lab i)) + ((230581994157 / 2251799813685248 : ℝ) : EReal))
    (Ideal.ofBits .f32 0x44800000#32)

end Cert.LossSpec

end
-- ==== Proof.KernelValue.lean ====
/-
  The idealized loss kernel's result is the loss.

  At grid point i the body's two blocks are row i of x and row l_i of the table of centres, l_i the label at position i, so
  the point's term is the specification's row term. The output block after the last point holds (the sum of the 1024
  terms plus the named constant) over the batch size; the named constant is, by the certificate's table, the rational
  230581994157 / 2^51; that block is the whole output array, and the program's result is its one entry.
-/
import proofs.«163692_j5239860101311_2_alg».proof.Proof.KernelChain
import proofs.«163692_j5239860101311_2_alg».proof.Proof.KernelBlocks
import proofs.«163692_j5239860101311_2_alg».proof.Proof.KernelFinal
import proofs.«163692_j5239860101311_2_alg».proof.Proof.KernelTail
import proofs.«163692_j5239860101311_2_alg».proof.Proof.LossSpec
import Idealize.ShloMosaic.PureOps.IdealRules

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen

variable (m : (ℓ : Loc nD τ sig) → Buf (Elt Ideal) ℓ) (hO : Ok m) (c : Dev nD)

/-- The kernel's named constant denotes the rational the certificate's table gives it. -/
theorem named_val : Named.named (F := Ideal) κ "clip_floor_total" (φ := .f32) 0x38D6BF08#32
    = ((230581994157 / 2251799813685248 : ℝ) : EReal) :=
  IdealRules.named_const.ideal_named_scalar _ _ _ _ rfl

/-- What the block holds after a point depends on the point's number only. -/
theorem outsAt_congr (n n' : ℕ) (e : n = n') (h : n < (cfgM m hO).N) (h' : n' < (cfgM m hO).N) :
    outsAt0 m hO c n h = outsAt0 m hO c n' h' := by
  subst e; rfl

/-- Point i's term is the specification's row term of row i against the centre its label names. -/
theorem term_eq (lab : Fin 1024 → Fin 100000) (hlab : ∀ i : Fin 1024, (lab i).val = (tbl m 0 (ix1 i) : BitVec 32).toNat)
    (i : Fin 1024) (h : i.val < (cfgM m hO).N) :
    ChainValue.term m hO c ⟨i.val, h⟩
      = Cert.LossSpec.rowTerm (m ((c : Thread nD τ).loc main_arg0)) (m ((c : Thread nD τ).loc main_arg2)) i (lab i) := by
  unfold ChainValue.term Cert.LossSpec.rowTerm Cert.LossAlgebra.clip
  refine congrArg (fun s => min (Ideal.ofBits .f32 0x5368D4A5#32) (max (Ideal.ofBits .f32 0x2B8CBCCC#32) s))
    (Finset.sum_congr rfl fun k _ => ?_)
  have hr : ChainValue.rowBlk m hO c ⟨i.val, h⟩ (ix3 (0 : Fin 1) (0 : Fin 1) k)
      = m ((c : Thread nD τ).loc main_arg0) (ix2 i k) := BlockValue.row_block m hO c ⟨i.val, h⟩ k i rfl
  have hc : ChainValue.cenBlk m hO c ⟨i.val, h⟩ (ix3 (0 : Fin 1) (0 : Fin 1) k)
      = m ((c : Thread nD τ).loc main_arg2) (ix2 (lab i) k) :=
    BlockValue.centre_block m hO c ⟨i.val, h⟩ k (ix1 i) rfl (lab i) (hlab i)
  rw [hr, hc]

/-- The terms summed over the grid are the row terms summed over the batch. -/
theorem sum_terms (lab : Fin 1024 → Fin 100000) (hlab : ∀ i : Fin 1024, (lab i).val = (tbl m 0 (ix1 i) : BitVec 32).toNat) :
    ∑ i ∈ Finset.range 1024, ChainValue.termN m hO c i
      = ∑ i : Fin 1024, Cert.LossSpec.rowTerm (m ((c : Thread nD τ).loc main_arg0)) (m ((c : Thread nD τ).loc main_arg2)) i (lab i) := by
  rw [Finset.sum_range]
  refine Finset.sum_congr rfl fun i _ => ?_
  have h : i.val < (cfgM m hO).N := by rw [show (cfgM m hO).N = 1024 from N_0]; exact i.isLt
  unfold ChainValue.termN
  rw [dif_pos h]
  exact term_eq m hO c lab hlab i h

/-- The output array's one entry after the run is the loss. -/
theorem result_value (lab : Fin 1024 → Fin 100000) (hlab : ∀ i : Fin 1024, (lab i).val = (tbl m 0 (ix1 i) : BitVec 32).toNat) :
    FinalValue.result m hO c PayloadValue.o
      = Cert.LossSpec.loss (m ((c : Thread nD τ).loc main_arg0)) (m ((c : Thread nD τ).loc main_arg2)) lab := by
  have h : 1023 < (cfgM m hO).N := by rw [show (cfgM m hO).N = 1024 from N_0]; decide
  have e : FinalValue.result m hO c = outsAt0 m hO c 1023 h :=
    outsAt_congr m hO c _ _ FinalValue.lastIdx_eq _ _
  rw [e, ChainValue.final_value m hO c h, named_val, sum_terms m hO c lab hlab]
  rfl

/-- Every weakly fair execution of the idealized kernel ends with its result at the loss and its arguments as launched. -/
theorem run (hO : Ok m) (ρ : Dev nD → PrngReg) (lab : Fin 1024 → Fin 100000)
    (hlab : ∀ i : Fin 1024, (lab i).val = (tbl m 0 (ix1 i) : BitVec 32).toNat) :
    θ_run defs (onTc (τ := τ) (main (F := Ideal))) ⟨m, fun _ => 0, ρ⟩ (fun r => ∀ c : Dev nD,
      r.2.mem ((c.tc : Thread nD τ).loc main_v3)
        = (fun _ => Cert.LossSpec.loss (m ((c : Thread nD τ).loc main_arg0)) (m ((c : Thread nD τ).loc main_arg2)) lab)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun i0 =>
      (TailValue.shapeCast_one ((dats m hO 0 c).arrAt 2 (cfgM m hO).N : S1x1.Idx → Elt Ideal .f32) i0).trans
        ((congrFun (FinalValue.final_o m hO c) PayloadValue.o).trans (result_value m hO c lab hlab))), (h c).2⟩)
    (TailValue.run_named m ρ hO)

end Cert.KernelIdeal.KernelValue

end
-- ==== Proof.ReferenceValue.lean ====
/- The reference program's result, read at the extended reals: every entry of its 1024 x 100000 matrix is the
   clipped product of the expanded squared distance |x_i|^2 + |c_j|^2 - 2<x_i,c_j> with the one-hot mask
   [label_i = j]; the sum of all entries is one clipped squared distance per row plus the clip's floor for every
   masked-out entry, and the result is that sum over the batch size: the shared loss. -/
import proofs.«163692_j5239860101311_2_alg».proof.Defs
import proofs.«163692_j5239860101311_2_alg».proof.Proof.Gen.ReferenceIdeal.Run
import proofs.«163692_j5239860101311_2_alg».proof.Proof.Gen.ReferenceIdeal.Read
import proofs.«163692_j5239860101311_2_alg».proof.Proof.LossAlgebra
import proofs.«163692_j5239860101311_2_alg».proof.Proof.LossSpec
import Idealize.ShloMosaic.Lib.ValueIdx

noncomputable section

open scoped BigOperators

namespace Cert.ReferenceIdeal.RefValue

open Cert.ReferenceIdeal Idealize.ShloMosaic Idealize.ShloMosaic.ValueIdx

/-! ### The squared norms, the inner products and their combination, entry by entry -/

/-- Row `i`'s squared norm: zero plus the sum over the lanes of `x * x`. -/
theorem v1_at (x : (⟨S1024x128, .f32⟩ : BufTy).Contents (Elt Ideal)) (i : Fin 1024) :
    Read.val_main_v1 (F := Ideal) x (ix1 i) = 0 + ∑ k : Fin 128, x (ix2 i k) * x (ix2 i k) := by
  rw [Read.val_main_v1_apply, Read.val_main_cst_apply, Ideal.ofBits_def, Cert.LossAlgebra.zero_val]
  refine congrArg (0 + ·) (Finset.sum_congr rfl fun k _ => ?_)
  have e : Read.idx_main_v1 (ix1 i) k = ix2 i k := by
    funext a; match a with | ⟨0, _⟩ => rfl | ⟨1, _⟩ => rfl
  rw [Read.val_main_v0_apply, Ideal.mulf_def, e]

/-- Centre `j`'s squared norm: zero plus the sum over the lanes of `c * c`. -/
theorem v4_at (c : (⟨S100000x128, .f32⟩ : BufTy).Contents (Elt Ideal)) (j : Fin 100000) :
    Read.val_main_v4 (F := Ideal) c (ix1 j) = 0 + ∑ k : Fin 128, c (ix2 j k) * c (ix2 j k) := by
  rw [Read.val_main_v4_apply, Read.val_main_cst_0_apply, Ideal.ofBits_def, Cert.LossAlgebra.zero_val]
  refine congrArg (0 + ·) (Finset.sum_congr rfl fun k _ => ?_)
  have e : Read.idx_main_v4 (ix1 j) k = ix2 j k := by
    funext a; match a with | ⟨0, _⟩ => rfl | ⟨1, _⟩ => rfl
  rw [Read.val_main_v3_apply, Ideal.mulf_def, e]

/-- Entry `(i, j)` of the broadcast sum is row `i`'s squared norm plus centre `j`'s. -/
theorem v8_at (x : (⟨S1024x128, .f32⟩ : BufTy).Contents (Elt Ideal))
    (c : (⟨S100000x128, .f32⟩ : BufTy).Contents (Elt Ideal)) (i : Fin 1024) (j : Fin 100000) :
    Read.val_main_v8 (F := Ideal) x c (ix2 i j)
      = Read.val_main_v1 (F := Ideal) x (ix1 i) + Read.val_main_v4 (F := Ideal) c (ix1 j) := by
  have e1 : Read.idx_main_v2 (Read.idx_main_v6 (ix2 i j)) = ix1 i := by
    funext a; match a with | ⟨0, _⟩ => rfl
  have e2 : Read.idx_main_v5 (Read.idx_main_v7 (ix2 i j)) = ix1 j := by
    funext a; match a with | ⟨0, _⟩ => rfl
  rw [Read.val_main_v8_apply, Ideal.addf_def, Read.val_main_v6_apply, Read.val_main_v2_apply, e1,
    Read.val_main_v7_apply, Read.val_main_v5_apply, e2]

/-- Entry `(i, j)` of the matrix product with the transposed centres is the inner product of row `i` and
    centre `j`. -/
theorem v10_at (x : (⟨S1024x128, .f32⟩ : BufTy).Contents (Elt Ideal))
    (c : (⟨S100000x128, .f32⟩ : BufTy).Contents (Elt Ideal)) (i : Fin 1024) (j : Fin 100000) :
    Read.val_main_v10 (F := Ideal) x c (ix2 i j) = ∑ k : Fin 128, x (ix2 i k) * c (ix2 j k) := by
  rw [Read.val_main_v10_apply]
  refine Finset.sum_congr rfl fun k _ => ?_
  have e1 : Read.lidx_main_v10 (ix2 i j) k = ix2 i k := by
    funext a; match a with | ⟨0, _⟩ => rfl | ⟨1, _⟩ => rfl
  have e2 : Read.idx_main_v9 (Read.ridx_main_v10 (ix2 i j) k) = ix2 j k := by
    funext a; match a with | ⟨0, _⟩ => rfl | ⟨1, _⟩ => rfl
  rw [Read.val_main_v9_apply, e1, e2]

/-- Entry `(i, j)` of the expanded squared distance: `(|x_i|^2 + |c_j|^2) - 2 <x_i, c_j>`. -/
theorem v13_at (x : (⟨S1024x128, .f32⟩ : BufTy).Contents (Elt Ideal))
    (c : (⟨S100000x128, .f32⟩ : BufTy).Contents (Elt Ideal)) (i : Fin 1024) (j : Fin 100000) :
    Read.val_main_v13 (F := Ideal) x c (ix2 i j)
      = ((0 + ∑ k : Fin 128, x (ix2 i k) * x (ix2 i k)) + (0 + ∑ k : Fin 128, c (ix2 j k) * c (ix2 j k)))
        - ((2 : ℝ) : EReal) * ∑ k : Fin 128, x (ix2 i k) * c (ix2 j k) := by
  rw [Read.val_main_v13_apply, Ideal.subf_def, v8_at, v1_at, v4_at, Read.val_main_v12_apply, Ideal.mulf_def,
    v10_at, Read.val_main_v11_apply, Read.val_main_cst_1_apply, Ideal.ofBits_def, Cert.LossAlgebra.two_val]

/-! ### The one-hot mask -/

/-- Comparing a label word with the word of a column number below `100000`, and converting the bit to a
    float, gives `1` where the label is the column and `0` elsewhere. -/
theorem mask_val (a : BitVec 32) (t j : Fin 100000) (ht : t.val = a.toNat) :
    (((IntOp.cmpi .eq a (BitVec.ofNat 32 j.val)).toNat : ℝ) : EReal) = if t = j then 1 else 0 := by
  have hj : (BitVec.ofNat 32 j.val).toNat = j.val := by
    rw [BitVec.toNat_ofNat]
    exact Nat.mod_eq_of_lt (by have := j.isLt; omega)
  by_cases h : t = j
  · have ha : a = BitVec.ofNat 32 j.val := BitVec.eq_of_toNat_eq (by rw [hj, ← ht, h])
    rw [if_pos h, ha]
    simp [IntOp.cmpi]
  · have ha : ¬ a = BitVec.ofNat 32 j.val := fun e => h (Fin.ext (by rw [ht, e, hj]))
    rw [if_neg h]
    simp [IntOp.cmpi, ha]

/-- Entry `(i, j)` of the mask is `1` where row `i`'s label is `j` and `0` elsewhere. -/
theorem v20_at (l : (⟨S1024, .i32⟩ : BufTy).Contents (Elt Ideal)) (lab : Fin 1024 → Fin 100000)
    (hlab : ∀ i : Fin 1024, (lab i).val = (l (ix1 i) : BitVec 32).toNat) (i : Fin 1024) (j : Fin 100000) :
    Read.val_main_v20 (F := Ideal) l (ix2 i j) = if lab i = j then 1 else 0 := by
  have e1 : Read.idx_main_v14 (Read.idx_main_v17 (ix2 i j)) = ix1 i := by
    funext a; match a with | ⟨0, _⟩ => rfl
  have e2 : ((Read.idx_main_v16 (Read.idx_main_v18 (ix2 i j))) 0).val = j.val := rfl
  rw [Read.val_main_v20_apply, Read.val_main_v19_apply, Read.val_main_v17_apply, Read.val_main_v14_apply, e1,
    Read.val_main_v18_apply, Read.val_main_v16_apply, Read.val_main_v15_apply, e2]
  exact mask_val (l (ix1 i)) (lab i) j (hlab i)

/-! ### One entry of the clipped, masked matrix -/

/-- Entry `(i, j)` of the clipped matrix: the expanded squared distance times the mask, clipped. -/
theorem v22_at (x : (⟨S1024x128, .f32⟩ : BufTy).Contents (Elt Ideal)) (l : (⟨S1024, .i32⟩ : BufTy).Contents (Elt Ideal))
    (c : (⟨S100000x128, .f32⟩ : BufTy).Contents (Elt Ideal)) (i : Fin 1024) (j : Fin 100000) :
    Read.val_main_v22 (F := Ideal) x l c (ix2 i j)
      = Cert.LossAlgebra.clip Cert.LossSpec.lo Cert.LossSpec.hi
          (Read.val_main_v13 (F := Ideal) x c (ix2 i j) * Read.val_main_v20 (F := Ideal) l (ix2 i j)) := by
  rw [Read.val_main_v22_apply, Ideal.minimumf_def, Read.val_main_call0_v4_apply, Read.val_main_call0_v3_apply,
    Read.val_main_cst_3_apply, Ideal.ofBits_def, Read.val_main_call0_v2_apply, Ideal.maximumf_def,
    Read.val_main_call0_v1_apply, Read.val_main_call0_v0_apply, Read.val_main_cst_2_apply, Ideal.ofBits_def,
    Read.val_main_v21_apply, Ideal.mulf_def]
  rfl

/-! ### The sum of all entries, and the result -/

/-- The expanded squared distance between row `i` and centre `j`, as the reference spells it. -/
def dist2 (x : (⟨S1024x128, .f32⟩ : BufTy).Contents (Elt Ideal))
    (c : (⟨S100000x128, .f32⟩ : BufTy).Contents (Elt Ideal)) (i : Fin 1024) (j : Fin 100000) : EReal :=
  ((0 + ∑ k : Fin 128, x (ix2 i k) * x (ix2 i k)) + (0 + ∑ k : Fin 128, c (ix2 j k) * c (ix2 j k)))
    - ((2 : ℝ) : EReal) * ∑ k : Fin 128, x (ix2 i k) * c (ix2 j k)

/-- The one-hot mask of the labels. -/
def onehot (lab : Fin 1024 → Fin 100000) (i : Fin 1024) (j : Fin 100000) : EReal :=
  if lab i = j then 1 else 0

/-- Entry `(i, j)` of the clipped matrix in terms of the squared distance and the one-hot mask. -/
theorem entry_at (x : (⟨S1024x128, .f32⟩ : BufTy).Contents (Elt Ideal)) (l : (⟨S1024, .i32⟩ : BufTy).Contents (Elt Ideal))
    (c : (⟨S100000x128, .f32⟩ : BufTy).Contents (Elt Ideal)) (lab : Fin 1024 → Fin 100000)
    (hlab : ∀ i : Fin 1024, (lab i).val = (l (ix1 i) : BitVec 32).toNat) (i : Fin 1024) (j : Fin 100000) :
    Read.val_main_v22 (F := Ideal) x l c (ix2 i j)
      = Cert.LossAlgebra.clip Cert.LossSpec.lo Cert.LossSpec.hi (dist2 x c i j * onehot lab i j) := by
  rw [v22_at, v13_at, v20_at l lab hlab]
  rfl

/-- For real rows and centres the expanded squared distance is the sum over the lanes of the squared
    differences. -/
theorem dist2_real (x : (⟨S1024x128, .f32⟩ : BufTy).Contents (Elt Ideal))
    (c : (⟨S100000x128, .f32⟩ : BufTy).Contents (Elt Ideal))
    (hx : ∀ (i : Fin 1024) (k : Fin 128), ∃ r : ℝ, x (ix2 i k) = (r : EReal))
    (hc : ∀ (j : Fin 100000) (k : Fin 128), ∃ r : ℝ, c (ix2 j k) = (r : EReal)) (i : Fin 1024) (j : Fin 100000) :
    dist2 x c i j = ∑ k : Fin 128, (x (ix2 i k) - c (ix2 j k)) * (x (ix2 i k) - c (ix2 j k)) := by
  choose xr hxr using fun k => hx i k
  choose cr hcr using fun k => hc j k
  unfold dist2
  simp only [hxr, hcr, zero_add]
  exact Cert.LossAlgebra.sq_dist_expand xr cr

/-- The sum of all entries of the clipped matrix: one clipped squared distance per row, plus the clip's floor
    for each of the `1024 * 99999` masked-out entries. -/
theorem v23_val (x : (⟨S1024x128, .f32⟩ : BufTy).Contents (Elt Ideal)) (l : (⟨S1024, .i32⟩ : BufTy).Contents (Elt Ideal))
    (c : (⟨S100000x128, .f32⟩ : BufTy).Contents (Elt Ideal))
    (hx : ∀ (i : Fin 1024) (k : Fin 128), ∃ r : ℝ, x (ix2 i k) = (r : EReal))
    (hc : ∀ (j : Fin 100000) (k : Fin 128), ∃ r : ℝ, c (ix2 j k) = (r : EReal))
    (lab : Fin 1024 → Fin 100000) (hlab : ∀ i : Fin 1024, (lab i).val = (l (ix1 i) : BitVec 32).toNat)
    (i0 : S_.Idx) :
    Read.val_main_v23 (F := Ideal) x l c i0
      = (∑ i : Fin 1024, Cert.LossSpec.rowTerm x c i (lab i))
        + ((230581994157 / 2251799813685248 : ℝ) : EReal) := by
  rw [Read.val_main_v23_apply, Read.val_main_cst_4_apply, Ideal.ofBits_def, Cert.LossAlgebra.zero_val, zero_add,
    sum_idx2]
  rw [Finset.sum_congr rfl (fun i _ => Finset.sum_congr rfl (fun j _ => entry_at x l c lab hlab i j))]
  rw [Cert.LossAlgebra.masked_clip_sum lab (dist2 x c) (onehot lab) Cert.LossSpec.lo Cert.LossSpec.hi
    Cert.LossAlgebra.floor_nonneg Cert.LossAlgebra.floor_le_ceil (fun _ _ => rfl)]
  rw [Fintype.card_fin, Fintype.card_fin, show (100000 - 1 : ℕ) = 99999 from rfl, Cert.LossAlgebra.floor_total]
  refine congrArg (· + _) (Finset.sum_congr rfl fun i _ => ?_)
  rw [dist2_real x c hx hc]
  rfl

/-- For real-valued inputs and labels in range, the reference's result is the loss. -/
theorem result_eq (x : (⟨S1024x128, .f32⟩ : BufTy).Contents (Elt Ideal)) (l : (⟨S1024, .i32⟩ : BufTy).Contents (Elt Ideal))
    (c : (⟨S100000x128, .f32⟩ : BufTy).Contents (Elt Ideal))
    (hx : ∀ (i : Fin 1024) (k : Fin 128), ∃ r : ℝ, x (ix2 i k) = (r : EReal))
    (hc : ∀ (j : Fin 100000) (k : Fin 128), ∃ r : ℝ, c (ix2 j k) = (r : EReal))
    (lab : Fin 1024 → Fin 100000) (hlab : ∀ i : Fin 1024, (lab i).val = (l (ix1 i) : BitVec 32).toNat)
    (i0 : S_.Idx) :
    Cert.ReferenceIdeal.Read.val_main_v24 (F := Ideal) x l c i0 = Cert.LossSpec.loss x c lab := by
  rw [Read.val_main_v24_apply, Ideal.hostDivf_def, v23_val x l c hx hc lab hlab, Read.val_main_cst_5_apply,
    Ideal.ofBits_def]
  rfl

end Cert.ReferenceIdeal.RefValue

end
-- ==== Proof.lean ====
/-
  A centre loss on the extended reals: the gathered kernel and the masked-matrix reference compute one number.

  The reference forms the 1024 x 100000 matrix of expanded squared distances |x_i|^2 + |c_j|^2 - 2<x_i, c_j>, multiplies it
  by the one-hot mask of the labels, clips EVERY entry to [lo, hi] and sums; each row keeps one entry, its distance to the
  centre its label names, and each of the other 1024 * 99999 entries is 0 clipped up to lo. The kernel gathers, for each
  row, the centre its label names, sums the squared lane differences, clips, accumulates over the 1024 rows, and at the
  end adds one constant — named here as exactly 1024 * 99999 * lo — and divides by the batch size. For real inputs the
  expanded squared distance is the sum of squared differences, so both are
      (sum_i clip(|x_i - c_{l_i}|^2) + 1024 * 99999 * lo) / 1024.
  The precondition supplies what is used: every input entry is a real number (the expansion is an identity of real
  numbers), and every label names a row of the table of centres (the kernel's gather stays inside the table, which is the
  side condition its run is stated under, and each row of the mask has its one hit).
-/
import proofs.«163692_j5239860101311_2_alg».proof.Defs
import proofs.«163692_j5239860101311_2_alg».proof.Proof.Gen.Kernel
import proofs.«163692_j5239860101311_2_alg».proof.Proof.Gen.Kernel.Frame
import proofs.«163692_j5239860101311_2_alg».proof.Proof.Gen.KernelIdeal
import proofs.«163692_j5239860101311_2_alg».proof.Proof.Gen.KernelIdeal.Frame
import proofs.«163692_j5239860101311_2_alg».proof.Proof.Gen.ReferenceIdeal
import proofs.«163692_j5239860101311_2_alg».proof.Proof.Gen.ReferenceIdeal.Run
import proofs.«163692_j5239860101311_2_alg».proof.Proof.Gen.ReferenceIdeal.Read
import proofs.«163692_j5239860101311_2_alg».proof.Proof.Gen.Pre_finite_inputs
import proofs.«163692_j5239860101311_2_alg».proof.Proof.PreFacts
import proofs.«163692_j5239860101311_2_alg».proof.Proof.KernelValue
import proofs.«163692_j5239860101311_2_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: its generated frame, whose side condition on the label table the
    precondition gives. -/
theorem frame_k : Cert.frame_Kernel (hKernel := Cert.Kernel.Gen.facts) (hPre_finite_inputs := Cert.Pre_finite_inputs.Gen.facts) :=
  fun m ρ h => Cert.Kernel.Gen.frame m ρ (Cert.Kernel.ok_of_pre m h)

/-- The same for the idealized kernel. -/
theorem frame_ki : Cert.frame_KernelIdeal (hKernelIdeal := Cert.KernelIdeal.Gen.facts) (hPre_finite_inputs := Cert.Pre_finite_inputs.Gen.facts) :=
  fun m ρ h => Cert.KernelIdeal.Gen.frame m ρ (Cert.KernelIdeal.ok_of_pre m h)

/-- The reference runs and keeps its arguments: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the kernel's folded constant is read as the rational the certificate's table
    gives it, the clip floor summed over the masked-out entries. -/
theorem preserves : Cert.preserves_Kernel_KernelIdeal :=
  IdealRules.named_const.statement Cert.KernelIdeal.κ "clip_floor_total" .f32 0x38D6BF08#32
    ((230581994157 / 2251799813685248 : ℝ) : EReal) rfl

/-- Both idealized programs end at the loss of the argument arrays, the labels read as rows of the table of centres. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hO := Cert.KernelIdeal.ok_of_pre m hpre
  -- each label as a row of the table of centres
  let lab : Fin 1024 → Fin 100000 := fun i =>
    ⟨(m (((0 : Dev Cert.KernelIdeal.nD).tc : Thread Cert.KernelIdeal.nD Cert.KernelIdeal.τ).loc Cert.KernelIdeal.main_arg1) (ix1 i) : BitVec 32).toNat,
      Cert.PreFacts.label_lt _ _ _ (hpre 0) i⟩
  have hlabK : ∀ i : Fin 1024, (lab i).val = (Cert.KernelIdeal.Gen.tbl m 0 (ix1 i) : BitVec 32).toNat :=
    fun i => by rw [Cert.PreFacts.tbl_eq]
  refine ⟨fun c => fun _ => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) lab,
    Cert.KernelIdeal.KernelValue.run m hO ρ lab hlabK, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  refine (Cert.ReferenceIdeal.Read.val_main_v24_eq _ _ _).trans ?_
  rw [(hagree 0).1, (hagree 0).2.1, (hagree 0).2.2]
  funext i0
  exact Cert.ReferenceIdeal.RefValue.result_eq _ _ _
    (fun i k => Cert.PreFacts.x_real _ _ _ (hpre 0) i k) (fun j k => Cert.PreFacts.c_real _ _ _ (hpre 0) j k)
    lab (fun _ => rfl) i0

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
